-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1677722 : Shape := ⟨1, ![1677722]⟩
abbrev S4096 : Shape := ⟨1, ![4096]⟩
abbrev S2x1677722 : Shape := ⟨2, ![2, 1677722]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1677722 : S_.BroadcastsInDim S1677722 (![] : Fin 0 → Fin S1677722.rank)
  reducesTo_S1677722_S_d0 : S1677722.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S1677722 .f32) (main_arg2 : FVec F S4096 .f32) (main_arg3 : IVec S2x1677722 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1677722 .f32 := Host.absf main_arg1
  let main_cst_0 : FVec F S_ .f32 := constant S_ .f32 0x7F800000#32
  let main_v5 : FVec F S1677722 .f32 := broadcastInDim S1677722 ![] bcast_S_S1677722 main_cst_0
  let main_v6 : IVec S1677722 1 := cmpf .olt main_v4 main_v5
  let main_c_1 : IVec S_ 1 := constantI S_ 1 1#1
  let main_v7 : IVec S_ 1 := (fun x v => Host.reduce IntOp.andi x v reducesTo_S1677722_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S1677722 : Shape := ⟨1, ![1677722]⟩
abbrev S4096 : Shape := ⟨1, ![4096]⟩
abbrev S2x1677722 : Shape := ⟨2, ![2, 1677722]⟩
abbrev S_ : Shape := ⟨0, ![]⟩
abbrev S4096x4096 : Shape := ⟨2, ![4096, 4096]⟩
abbrev S1x1677722 : Shape := ⟨2, ![1, 1677722]⟩
abbrev S1677722x1 : Shape := ⟨2, ![1677722, 1]⟩
abbrev S1677722x2 : Shape := ⟨2, ![1677722, 2]⟩
abbrev S1x4096 : Shape := ⟨2, ![1, 4096]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 32
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S1677722, .f32⟩
  | .hbm, ⟨2, _⟩ => ⟨S4096, .f32⟩
  | .hbm, ⟨3, _⟩ => ⟨S2x1677722, .i32⟩
  | .hbm, ⟨4, _⟩ => ⟨S_, .f32⟩
  | .hbm, ⟨5, _⟩ => ⟨S4096x4096, .f32⟩
  | .hbm, ⟨6, _⟩ => ⟨S1x1677722, .i32⟩
  | .hbm, ⟨7, _⟩ => ⟨S1677722, .i32⟩
  | .hbm, ⟨8, _⟩ => ⟨S1x1677722, .i32⟩
  | .hbm, ⟨9, _⟩ => ⟨S1677722, .i32⟩
  | .hbm, ⟨10, _⟩ => ⟨S_, .i32⟩
  | .hbm, ⟨11, _⟩ => ⟨S1677722, .i32⟩
  | .hbm, ⟨12, _⟩ => ⟨S1677722, .i1⟩
  | .hbm, ⟨13, _⟩ => ⟨S_, .i32⟩
  | .hbm, ⟨14, _⟩ => ⟨S1677722, .i32⟩
  | .hbm, ⟨15, _⟩ => ⟨S1677722, .i32⟩
  | .hbm, ⟨16, _⟩ => ⟨S1677722, .i32⟩
  | .hbm, ⟨17, _⟩ => ⟨S_, .i32⟩
  | .hbm, ⟨18, _⟩ => ⟨S1677722, .i32⟩
  | .hbm, ⟨19, _⟩ => ⟨S1677722, .i1⟩
  | .hbm, ⟨20, _⟩ => ⟨S_, .i32⟩
  | .hbm, ⟨21, _⟩ => ⟨S1677722, .i32⟩
  | .hbm, ⟨22, _⟩ => ⟨S1677722, .i32⟩
  | .hbm, ⟨23, _⟩ => ⟨S1677722, .i32⟩
  | .hbm, ⟨24, _⟩ => ⟨S1677722x1, .i32⟩
  | .hbm, ⟨25, _⟩ => ⟨S1677722x1, .i32⟩
  | .hbm, ⟨26, _⟩ => ⟨S1677722x2, .i32⟩
  | .hbm, ⟨27, _⟩ => ⟨S4096x4096, .f32⟩
  | .hbm, ⟨28, _⟩ => ⟨S8192x4096, .bf16⟩
  | .hbm, ⟨29, _⟩ => ⟨S4096x4096, .bf16⟩
  | .hbm, ⟨30, _⟩ => ⟨S1x4096, .f32⟩
  | .hbm, ⟨31, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4096x4096 : S_.BroadcastsInDim S4096x4096 (![] : Fin 0 → Fin S4096x4096.rank)
  slices_S2x1677722_S1x1677722_0_0 : S2x1677722.Slices ![0, 0] S1x1677722
  shapeCasts_S1x1677722_S1677722 : S1x1677722.ShapeCasts S1677722
  slices_S2x1677722_S1x1677722_1_0 : S2x1677722.Slices ![1, 0] S1x1677722
  bcast_S_S1677722 : S_.BroadcastsInDim S1677722 (![] : Fin 0 → Fin S1677722.rank)
  bcast_S1677722_S1677722x1_0 : S1677722.BroadcastsInDim S1677722x1 (![0] : Fin 1 → Fin S1677722x1.rank)
  concatenates_S1677722x1_S1677722x1_S1677722x2_d1 : Shape.Concatenates [S1677722x1, S1677722x1] S1677722x2 1
  bitsLt_bf16_f32 : FTy.bits .bf16 < FTy.bits .f32
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  scatter_S4096x4096_S1677722x2_S1677722_n_01_01_1_wf : ScatterDims.WF S4096x4096 S1677722x2 S1677722 [] [0, 1] [0, 1] 1
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def scatter_S4096x4096_S1677722x2_S1677722_n_01_01_1 : ScatterDims S4096x4096 S1677722x2 S1677722 where
  updateWindowDims := []
  insertedWindowDims := [0, 1]
  scatterDimsToOperandDims := [0, 1]
  indexVectorDim := 1
  wf := scatter_S4096x4096_S1677722x2_S1677722_n_01_01_1_wf
def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v19) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S1677722 : Shape := ⟨1, ![1677722]⟩
abbrev S4096 : Shape := ⟨1, ![4096]⟩
abbrev S2x1677722 : Shape := ⟨2, ![2, 1677722]⟩
abbrev S_ : Shape := ⟨0, ![]⟩
abbrev S4096x4096 : Shape := ⟨2, ![4096, 4096]⟩
abbrev S1x1677722 : Shape := ⟨2, ![1, 1677722]⟩
abbrev S1677722x1 : Shape := ⟨2, ![1677722, 1]⟩
abbrev S1677722x2 : Shape := ⟨2, ![1677722, 2]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1677722, .f32⟩
  | .hbm, ⟨2, _⟩ => ⟨S4096, .f32⟩
  | .hbm, ⟨3, _⟩ => ⟨S2x1677722, .i32⟩
  | .hbm, ⟨4, _⟩ => ⟨S_, .f32⟩
  | .hbm, ⟨5, _⟩ => ⟨S4096x4096, .f32⟩
  | .hbm, ⟨6, _⟩ => ⟨S1x1677722, .i32⟩
  | .hbm, ⟨7, _⟩ => ⟨S1677722, .i32⟩
  | .hbm, ⟨8, _⟩ => ⟨S1x1677722, .i32⟩
  | .hbm, ⟨9, _⟩ => ⟨S1677722, .i32⟩
  | .hbm, ⟨10, _⟩ => ⟨S_, .i32⟩
  | .hbm, ⟨11, _⟩ => ⟨S1677722, .i32⟩
  | .hbm, ⟨12, _⟩ => ⟨S1677722, .i1⟩
  | .hbm, ⟨13, _⟩ => ⟨S_, .i32⟩
  | .hbm, ⟨14, _⟩ => ⟨S1677722, .i32⟩
  | .hbm, ⟨15, _⟩ => ⟨S1677722, .i32⟩
  | .hbm, ⟨16, _⟩ => ⟨S1677722, .i32⟩
  | .hbm, ⟨17, _⟩ => ⟨S_, .i32⟩
  | .hbm, ⟨18, _⟩ => ⟨S1677722, .i32⟩
  | .hbm, ⟨19, _⟩ => ⟨S1677722, .i1⟩
  | .hbm, ⟨20, _⟩ => ⟨S_, .i32⟩
  | .hbm, ⟨21, _⟩ => ⟨S1677722, .i32⟩
  | .hbm, ⟨22, _⟩ => ⟨S1677722, .i32⟩
  | .hbm, ⟨23, _⟩ => ⟨S1677722, .i32⟩
  | .hbm, ⟨24, _⟩ => ⟨S1677722x1, .i32⟩
  | .hbm, ⟨25, _⟩ => ⟨S1677722x1, .i32⟩
  | .hbm, ⟨26, _⟩ => ⟨S1677722x2, .i32⟩
  | .hbm, ⟨27, _⟩ => ⟨S4096x4096, .f32⟩
  | .hbm, ⟨28, _⟩ => ⟨S8192x4096, .f32⟩
  | .hbm, ⟨29, _⟩ => ⟨S1x4096, .f32⟩
  | .hbm, ⟨30, _⟩ => ⟨S8192x4096, .f32⟩
  | .hbm, ⟨31, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  slices_S2x1677722_S1x1677722_0_0 : S2x1677722.Slices ![0, 0] S1x1677722
  shapeCasts_S1x1677722_S1677722 : S1x1677722.ShapeCasts S1677722
  slices_S2x1677722_S1x1677722_1_0 : S2x1677722.Slices ![1, 0] S1x1677722
  bcast_S_S1677722 : S_.BroadcastsInDim S1677722 (![] : Fin 0 → Fin S1677722.rank)
  bcast_S1677722_S1677722x1_0 : S1677722.BroadcastsInDim S1677722x1 (![0] : Fin 1 → Fin S1677722x1.rank)
  concatenates_S1677722x1_S1677722x1_S1677722x2_d1 : Shape.Concatenates [S1677722x1, S1677722x1] S1677722x2 1
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  scatter_S4096x4096_S1677722x2_S1677722_n_01_01_1_wf : ScatterDims.WF S4096x4096 S1677722x2 S1677722 [] [0, 1] [0, 1] 1
  dot_S8192x4096_S4096x4096_S8192x4096_1_1_0_0_n_n_wf : DotDims.WF S8192x4096 S4096x4096 S8192x4096 [1] [1] [0] [0] [] []

variable [Facts₀]

def scatter_S4096x4096_S1677722x2_S1677722_n_01_01_1 : ScatterDims S4096x4096 S1677722x2 S1677722 where
  updateWindowDims := []
  insertedWindowDims := [0, 1]
  scatterDimsToOperandDims := [0, 1]
  indexVectorDim := 1
  wf := scatter_S4096x4096_S1677722x2_S1677722_n_01_01_1_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.DenseAffine.lean ====
/-
  The function both programs compute, stated once and index by index: a dense affine layer applied to every
  row of an [8192, 4096] array of tokens,

      out (n, o) = Σ_k x (n, k) · w (o, k) + b (o),        k over the 4096 input features,

  where the weight matrix `w` is stored one output feature per ROW (so the product is x · wᵀ) and the bias `b`
  has one entry per output feature. Extended reals throughout; no program is mentioned here. Both sides of the
  certificate build the same `w` (a sparse list of entries summed into a zero matrix) before this layer, so `w`
  stays a variable.
-/
import Idealize.ShloMosaic.PureOps.Ideal
import Idealize.ShloMosaic.Lib.ValueIdx

noncomputable section

namespace Cert.DenseAffine

open Idealize.ShloMosaic Idealize.ShloMosaic.ValueIdx

/-- The token array's shape, the weight matrix's and the bias vector's. -/
abbrev Tokens : Shape := ⟨2, ![8192, 4096]⟩
abbrev Weights : Shape := ⟨2, ![4096, 4096]⟩
abbrev Bias : Shape := ⟨1, ![4096]⟩

/-- Row `n` of the result is row `n` of `x` against every row of `w`, plus the bias: entry `(n, o)` is the
    inner product of row `n` of `x` with row `o` of `w`, plus `b o`. -/
def rowsAffine (x : Tokens.Idx → EReal) (w : Weights.Idx → EReal) (b : Bias.Idx → EReal) : Tokens.Idx → EReal :=
  fun i => (∑ k : Fin 4096, x (ix2 (i 0) k) * w (ix2 (i 1) k)) + b (ix1 (i 1))

/-- The same entry with the index given by its coordinates. -/
theorem rowsAffine_apply (x : Tokens.Idx → EReal) (w : Weights.Idx → EReal) (b : Bias.Idx → EReal)
    (n : Fin 8192) (o : Fin 4096) :
    rowsAffine x w b (ix2 n o) = (∑ k : Fin 4096, x (ix2 n k) * w (ix2 o k)) + b (ix1 o) := rfl

end Cert.DenseAffine

end
-- ==== Proof.RefRows.lean ====
/-
  The reference program, read at an entry, is the dense affine layer of DenseAffine.lean applied to its own weight
  matrix. Its last stage adds two arrays: a contraction of the token array with the weight matrix over the two SECOND
  axes — entry (n, o) is Σ_k x (n, k) · w (o, k) — and the bias vector laid along every row, first as a [1, 4096] row
  and then under all 8192 rows, so that entry (n, o) of it is b (o). The weight matrix (a scatter of the sparse
  entries into zeros) is left as the stage that builds it and is not opened.
-/
import proofs.«136315_j6820408066325_1_alg».proof.Proof.Gen.ReferenceIdeal.Read
import proofs.«136315_j6820408066325_1_alg».proof.Proof.DenseAffine

noncomputable section

namespace Cert.RefRows

open Idealize.ShloMosaic Idealize.ShloMosaic.ValueIdx Cert.ReferenceIdeal Cert.ReferenceIdeal.Read

/-- The weight matrix as the reference builds it from the sparse values and their (row, column) positions. -/
abbrev weights (vals : FVec Ideal S1677722 .f32) (pos : IVec S2x1677722 32) : FVec Ideal S4096x4096 .f32 :=
  val_main_v18 (F := Ideal) vals pos

/-- The reference's result is the affine layer of its inputs: tokens, the scattered weight matrix, the bias. -/
theorem result_is_rowsAffine (x : FVec Ideal S8192x4096 .f32) (vals : FVec Ideal S1677722 .f32)
    (b : FVec Ideal S4096 .f32) (pos : IVec S2x1677722 32) :
    val_main_v22 (F := Ideal) x vals b pos = Cert.DenseAffine.rowsAffine x (weights vals pos) b := by
  funext i
  have el : ∀ k : Fin 4096, lidx_main_v19 i k = ix2 (i 0) k := fun k => funext fun a => by
    match a with | ⟨0, _⟩ => rfl | ⟨1, _⟩ => rfl
  have er : ∀ k : Fin 4096, ridx_main_v19 i k = ix2 (i 1) k := fun k => funext fun a => by
    match a with | ⟨0, _⟩ => rfl | ⟨1, _⟩ => rfl
  have eb : idx_main_v20 (idx_main_v21 i) = ix1 (i 1) := funext fun a => by
    match a with | ⟨0, _⟩ => rfl
  rw [val_main_v22_apply, val_main_v19_apply, val_main_v21_apply, val_main_v20_apply]
  simp only [el, er, eb, Ideal.addf_def]
  rfl

end Cert.RefRows

end
-- ==== Proof.LibRowsByRows.lean ====
/-
  Two layout facts and one product that an attention kernel's block meets, each read at an index written by its coordinates.

  A block `[1, 1, a, b]` that carries one batch and one head is cast to the matrix `[a, b]` (and a result matrix back):
  both casts keep the row-major position, so entry `(i, j)` of the matrix is entry `(0, 0, i, j)` of the block. The
  scores `q · kᵀ` are a product of an `[m, K]` matrix with an `[n, K]` matrix contracting the two SECOND axes (the keys are
  stored row by row, not transposed): at the ideal values, into the zero splat, entry `(p, q)` is the inner product of row
  `p` of the left operand with row `q` of the right one, `Σ_k l(p, k) · r(q, k)`. The record is given literally over any
  well-formedness witness, so a printed record of that form is an instance by unfolding its name. Nothing here mentions a
  program.
-/
import Idealize.ShloMosaic.PureOps.Ideal.Laws
import Idealize.ShloMosaic.Lib.Pipeline.Value
import Idealize.ShloMosaic.Lib.ValueIdx

noncomputable section

namespace Cert.RowsByRows

open Idealize.ShloMosaic Idealize.ShloMosaic.ValueIdx

/-! ## Two unit axes dropped or added by a shape cast -/

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-! ## A product with the right operand's rows: axis 1 contracted with axis 1 -/

/-- The literal record of an `[m, K] × [n, K]` product contracting the two second axes. -/
abbrev rowsByRows {m K n : ℕ}
    (wf : DotDims.WF (⟨2, ![m, K]⟩ : Shape) (⟨2, ![n, K]⟩ : Shape) (⟨2, ![m, n]⟩ : Shape) [1] [1] [0] [0] [] []) :
    DotDims (⟨2, ![m, K]⟩ : Shape) (⟨2, ![n, K]⟩ : Shape) (⟨2, ![m, n]⟩ : Shape) :=
  { lhsContracting := [1], rhsContracting := [1], lhsNonContracting := [0], rhsNonContracting := [0],
    lhsBatch := [], rhsBatch := [], wf := wf }

section
variable {m K n : ℕ}
  (wf : DotDims.WF (⟨2, ![m, K]⟩ : Shape) (⟨2, ![n, K]⟩ : Shape) (⟨2, ![m, n]⟩ : Shape) [1] [1] [0] [0] [] [])
  (j : (⟨2, ![m, n]⟩ : Shape).Idx) (k : (rowsByRows wf).contr.Idx)

/-- The left operand's row is the result's row. -/
theorem rbr_lhs_row : ((rowsByRows wf).lhsIdx j k 0).val = (j 0).val := by
  unfold DotDims.lhsIdx
  rw [dif_neg (show ¬(0 : Fin (⟨2, ![m, K]⟩ : Shape).rank) ∈ (rowsByRows wf).lhsBatch from List.not_mem_nil),
    dif_pos (show (0 : Fin (⟨2, ![m, K]⟩ : Shape).rank) ∈ (rowsByRows wf).lhsNonContracting from List.mem_singleton.mpr rfl)]
  rfl

/-- The left operand's column is the contracted coordinate. -/
theorem rbr_lhs_col : ((rowsByRows wf).lhsIdx j k 1).val = (k ⟨0, Nat.one_pos⟩).val :=
  (rowsByRows wf).lhsIdx_val_of_single rfl j k

/-- The right operand's row is the result's column. -/
theorem rbr_rhs_row : ((rowsByRows wf).rhsIdx j k 0).val = (j 1).val := by
  unfold DotDims.rhsIdx
  rw [dif_neg (show ¬(0 : Fin (⟨2, ![n, K]⟩ : Shape).rank) ∈ (rowsByRows wf).rhsBatch from List.not_mem_nil),
    dif_pos (show (0 : Fin (⟨2, ![n, K]⟩ : Shape).rank) ∈ (rowsByRows wf).rhsNonContracting from List.mem_singleton.mpr rfl)]
  rfl

/-- The right operand's column is the contracted coordinate. -/
theorem rbr_rhs_col : ((rowsByRows wf).rhsIdx j k 1).val = (k ⟨0, Nat.one_pos⟩).val :=
  (rowsByRows wf).rhsIdx_val_of_single rfl j k

end

/-- Entry (p, q) of the product into the zero splat is the inner product of row p of the left operand with row q of
    the right one. -/
theorem matmul_rowsByRows_apply {m K n : ℕ} {φ₁ φ₂ : FTy}
    (wf : DotDims.WF (⟨2, ![m, K]⟩ : Shape) (⟨2, ![n, K]⟩ : Shape) (⟨2, ![m, n]⟩ : Shape) [1] [1] [0] [0] [] [])
    (prec : Option ContractPrecision)
    (l : FVec Ideal (⟨2, ![m, K]⟩ : Shape) φ₁) (r : FVec Ideal (⟨2, ![n, K]⟩ : Shape) φ₂) (p : Fin m) (q : Fin n) :
    FloatOps.matmul (rowsByRows wf) prec l r (constant (⟨2, ![m, n]⟩ : Shape) .f32 0x00000000#32) (ix2 p q)
      = ∑ k : Fin K, l (ix2 p k) * r (ix2 q k) := by
  rw [Ideal.matmul_constant_zero_apply]
  rw [← Equiv.sum_comp (contrEquiv1 (rowsByRows wf) K rfl rfl).symm]
  refine Finset.sum_congr rfl fun k _ => ?_
  have hk := contrEquiv1_symm_val (rowsByRows wf) K rfl rfl k
  have el : (rowsByRows wf).lhsIdx (ix2 p q) ((contrEquiv1 (rowsByRows wf) K rfl rfl).symm k) = ix2 p k :=
    funext fun a => Fin.ext (by
      match a with
      | ⟨0, _⟩ => exact rbr_lhs_row wf _ _
      | ⟨1, _⟩ => exact (rbr_lhs_col wf _ _).trans hk)
  have er : (rowsByRows wf).rhsIdx (ix2 p q) ((contrEquiv1 (rowsByRows wf) K rfl rfl).symm k) = ix2 q k :=
    funext fun a => Fin.ext (by
      match a with
      | ⟨0, _⟩ => exact rbr_rhs_row wf _ _
      | ⟨1, _⟩ => exact (rbr_rhs_col wf _ _).trans hk)
  rw [el, er]

end Cert.RowsByRows

end
-- ==== Proof.BlockProduct.lean ====
/-
  One grid point's work, read at an entry. The kernel body loads a [1024, 4096] block of token rows, a
  [512, 4096] block of weight rows and a [1, 512] strip of the bias, multiplies the first by the transpose of the
  second into a zero accumulator and adds the strip to every row. At the ideal values entry (p, q) of what it stores
  is therefore

      Σ_k tokens (p, k) · weights (q, k) + strip (0, q),

  the product read through the general lemma for a product contracting the two second axes, the strip through the
  broadcast's index rule (its one row is read for every p).
-/
import proofs.«136315_j6820408066325_1_alg».proof.Proof.Gen.KernelIdeal.Skeleton
import proofs.«136315_j6820408066325_1_alg».proof.Proof.LibRowsByRows
import Idealize.ShloMosaic.Lib.Pipeline.Value
import Idealize.ShloMosaic.Lib.ValueIdx
import Idealize.ShloMosaic.PureOps.Ideal.Laws

noncomputable section

namespace Cert.BlockProduct

open Idealize.ShloMosaic Idealize.ShloMosaic.ValueIdx Cert.KernelIdeal Cert.KernelIdeal.Gen

/-- A [1, 512] strip laid under every one of 1024 rows reads, at (p, q), the strip's entry (0, q). -/
theorem strip_under_rows (s : FVec Ideal S1x512 .f32) (p : Fin 1024) (q : Fin 512) :
    broadcastTo S1024x512 s broadcasts_S1x512_S1024x512 (ix2 p q) = s (ix2 (0 : Fin 1) q) :=
  broadcastTo_apply s broadcasts_S1x512_S1024x512 (ix2 p q) (ix2 (0 : Fin 1) q) (fun a => by
    match a with
    | ⟨0, _⟩ => show (0 : Nat) = if (1 : Nat) = 1 then 0 else p.val; rw [if_pos rfl]
    | ⟨1, _⟩ => show q.val = if (512 : Nat) = 1 then 0 else q.val; rw [if_neg (by decide)])

/-- Entry (p, q) of the block a grid point stores: row p of the token block against row q of the weight block, plus
    the bias strip's entry q. -/
theorem stored_apply (x0 : Vec Ideal S1024x4096 .bf16) (x1 : Vec Ideal S512x4096 .bf16) (x2 : Vec Ideal S1x512 .f32)
    (p : Fin 1024) (q : Fin 512) :
    k0_pay1 (F := Ideal) x0 x1 x2 (ix2 p q)
      = (∑ k : Fin 4096, x0 (ix2 p k) * x1 (ix2 q k)) + x2 (ix2 (0 : Fin 1) q) := by
  unfold k0_pay1
  rw [addf_apply, shapeCast_self, shapeCast_self, shapeCast_self, strip_under_rows]
  refine congrArg (· + x2 (ix2 (0 : Fin 1) q)) ?_
  exact Cert.RowsByRows.matmul_rowsByRows_apply dot_S1024x4096_S512x4096_S1024x512_1_1_0_0_n_n_wf none x0 x1 p q

end Cert.BlockProduct

end
-- ==== Proof.EntryArrays.lean ====
/-
  What two of the kernel's three staged arrays hold when the grid starts, as functions of the program's arguments.
  Before the grid the program narrows the token array to a shorter float format and views the bias vector as a single
  [1, 4096] row. At the ideal values a change of float format is the identity, so the staged token array is the token
  argument itself; the staged bias row reads, at (0, o), the bias entry o (a reshape keeps the row-major position).
  The third staged array, the weight matrix, is EntryWeights.lean.
-/
import proofs.«136315_j6820408066325_1_alg».proof.Proof.Gen.KernelIdeal.Frame
import Idealize.ShloMosaic.Lib.Pipeline.Value
import Idealize.ShloMosaic.Lib.ValueIdx
import Idealize.ShloMosaic.Lib.StableHlo.Run

noncomputable section

namespace Cert.EntryArrays

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ)

/-- The staged token array is the token argument: narrowing the format changes nothing at the ideal values. -/
theorem tokens_eq (c : Dev nD) :
    (V m c main_v19 : S8192x4096.Idx → EReal) = m ((c : Thread nD τ).loc main_arg0) := by
  dsimp only [Gen.V, Gen.hostOps0]
  after_results
  rfl

/-- The staged bias row reads, at (0, o), the bias argument's entry o. -/
theorem bias_row_apply (c : Dev nD) (o : Fin 4096) :
    (V m c main_v21 : S1x4096.Idx → EReal) (ix2 (0 : Fin 1) o) = m ((c : Thread nD τ).loc main_arg2) (ix1 o) := by
  have e : (V m c main_v21 : S1x4096.Idx → EReal)
      = shapeCast S1x4096 (m ((c : Thread nD τ).loc main_arg2) : S4096.Idx → EReal) shapeCasts_S4096_S1x4096 := by
    dsimp only [Gen.V, Gen.hostOps0]
    after_results
    rfl
  rw [e]
  exact shapeCast_apply _ shapeCasts_S4096_S1x4096 (ix2 (0 : Fin 1) o) (ix1 o) (by
    rw [Shape.rowMajor_val_one, Shape.rowMajor_val_two]
    show o.val = 0 * 4096 + o.val
    omega)

end Cert.EntryArrays

end
-- ==== Proof.EntryWeights.lean ====
/-
  The kernel's staged weight matrix when the grid starts. Before the grid the program builds a [4096, 4096] matrix by
  summing the sparse values into a zero matrix at their (row, column) positions — a negative position first wrapped by
  adding 4096, the two position vectors joined into one list of pairs — operation for operation what the reference
  does, and then narrows the float format, which at the ideal values is the identity. So the staged matrix is the
  reference's weight matrix of the same two arguments: once the narrowing is removed, both sides are the same
  accumulating scatter applied to the same zero matrix, the same list of pairs and the same values, and they are
  compared argument by argument (the scatter itself, a sum over all 1,677,722 sparse entries, is never opened).
-/
import proofs.«136315_j6820408066325_1_alg».proof.Proof.Gen.KernelIdeal.Frame
import proofs.«136315_j6820408066325_1_alg».proof.Proof.RefRows
import Idealize.ShloMosaic.Lib.StableHlo.Run

noncomputable section

namespace Cert.EntryWeights

open Idealize.ShloMosaic Idealize.ShloMosaic.TcCoe Idealize.SL.Sem
open Idealize.ShloMosaic.StableHlo
open Cert.KernelIdeal Cert.KernelIdeal.Gen

/-- Narrowing an array's float format leaves it unchanged at the ideal values. -/
theorem narrow_id {s : Shape} (x : FVec Ideal s .f32) (h : FTy.bf16.bits < FTy.f32.bits) :
    (truncf .bf16 x h : s.Idx → EReal) = x := rfl

variable (m : (ℓ : Loc nD τ sig) → Buf (Elt Ideal) ℓ)

set_option maxHeartbeats 1000000 in
/-- The staged weight matrix is the reference's weight matrix of the sparse values and positions. The staged
    array's contents are read off the operations before the grid, each at its own result and every other
    buffer left as it was; the two position columns sit inside the joined list's entries and are read the same way. -/
theorem weights_eq (c : Dev nD) :
    (V m c main_v20 : S4096x4096.Idx → EReal)
      = Cert.RefRows.weights (m ((c : Thread nD τ).loc main_arg1)) (m ((c : Thread nD τ).loc main_arg3)) := by
  dsimp only [Gen.V, Gen.hostOps0]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  refine (narrow_id _ _).trans ?_
  rfl

end Cert.EntryWeights

end
-- ==== Proof.BlockCover.lean ====
/-
  From grid points to the whole result array. The grid is 8 × 8: point (g, h) stores the [1024, 512] block of the
  result whose rows start at 1024·g and whose columns start at 512·h. For that it is handed token rows
  1024·g … 1024·g + 1023 (all 4096 columns), weight rows 512·h … 512·h + 511 (all 4096 columns) and bias entries
  512·h … 512·h + 511. Entry (p, q) of what it stores is the inner product of token row 1024·g + p with weight row
  512·h + q plus bias entry 512·h + q (BlockProduct.lean) — which is entry (1024·g + p, 512·h + q) of the dense affine
  layer of the program's arguments (DenseAffine.lean). So every point stores its block of ONE whole-array function;
  the 64 blocks tile the [8192, 4096] array (row r lies in block row r / 1024, column s in block column s / 512), and
  the array the program returns is that function.
-/
import proofs.«136315_j6820408066325_1_alg».proof.Proof.Gen.KernelIdeal.Value
import proofs.«136315_j6820408066325_1_alg».proof.Proof.BlockProduct
import proofs.«136315_j6820408066325_1_alg».proof.Proof.EntryArrays
import proofs.«136315_j6820408066325_1_alg».proof.Proof.EntryWeights
import proofs.«136315_j6820408066325_1_alg».proof.Proof.DenseAffine

noncomputable section

namespace Cert.BlockCover

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value
open Cert.DenseAffine (rowsAffine)

variable (m : (ℓ : Loc nD τ sig) → Buf (Elt Ideal) ℓ) (ρ : Dev nD → PrngReg)

/-- The dense affine layer of the program's own arguments: tokens, the weight matrix scattered from the sparse values
    and positions, the bias. -/
abbrev layer (c : Dev nD) : S8192x4096.Idx → EReal :=
  rowsAffine (m ((c : Thread nD τ).loc main_arg0))
    (Cert.RefRows.weights (m ((c : Thread nD τ).loc main_arg1)) (m ((c : Thread nD τ).loc main_arg3)))
    (m ((c : Thread nD τ).loc main_arg2))

/-! ## One entry of one block, over plain arrays -/

/-- If a token block's row p is the array's row n, a weight block's row q the matrix's row o, and the bias strip's
    entry q the bias entry o, then entry (p, q) of the stored block is entry (n, o) of the layer. -/
theorem block_entry (X : S8192x4096.Idx → EReal) (W : S4096x4096.Idx → EReal) (b : S4096.Idx → EReal)
    (x0 : Vec Ideal S1024x4096 .bf16) (x1 : Vec Ideal S512x4096 .bf16) (x2 : Vec Ideal S1x512 .f32)
    (p : Fin 1024) (q : Fin 512) (n : Fin 8192) (o : Fin 4096)
    (h0 : ∀ k : Fin 4096, x0 (ix2 p k) = X (ix2 n k))
    (h1 : ∀ k : Fin 4096, x1 (ix2 q k) = W (ix2 o k))
    (h2 : x2 (ix2 (0 : Fin 1) q) = b (ix1 o)) :
    k0_pay1 (F := Ideal) x0 x1 x2 (ix2 p q) = rowsAffine X W b (ix2 n o) := by
  rw [Cert.BlockProduct.stored_apply, Cert.DenseAffine.rowsAffine_apply, h2]
  exact congrArg (· + b (ix1 o)) (Finset.sum_congr rfl fun k _ => by rw [h0 k, h1 k])

/-! ## Where each point's blocks sit -/

theorem zero_offsets : (![0, 0] : Fin 2 → Nat) = fun _ => 0 := funext fun a => by fin_cases a <;> rfl

/-- The block indices at a grid point, decided over the 64 points: the token block shares the result block's row
    index and starts at column 0; the weight block's row index is the result block's column index, column 0; the bias
    strip sits in row 0 at the result block's column index; both result indices are at most 7. -/
theorem block_indices : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 7 :=
  (by decide +kernel : ∀ t : Fin grid0.N, _)

/-- Every pair of block indices below 8 is some grid point's. -/
theorem block_indices_onto : ∀ (g h : Fin 8), ∃ t : Fin cfg0.N, win0_3.index t = ![g.val, h.val] :=
  (by decide +kernel : ∀ (g h : Fin 8), ∃ t : Fin grid0.N, win0_3.index t = ![g.val, h.val])

/-! ## A block of a staged array, read at an entry

Entry `y` of a window's block at a point is the window's array at `y`'s place in the array. Stated for ANY contents
of the program's buffers, so that only the window's array reference is looked at, never how the program filled it. -/

section
variable (c : Dev nD) (Vf : (b : Ref sig .tc) → Buf (Elt Ideal) ((c : Thread nD τ).loc b)) (t : Fin cfg0.N)

theorem read_token_block (y : ((cfg0.win 0).xblock (cfg0.grid.coords t)).Idx) :
    ((cfg0.win 0).blk t).view.read (Elt Ideal) (Vf (Pipeline.arrRef spec0 0)) y
      = Vf main_v19 (((cfg0.win 0).blk t).view.emb y) := rfl

theorem read_weight_block (y : ((cfg0.win 1).xblock (cfg0.grid.coords t)).Idx) :
    ((cfg0.win 1).blk t).view.read (Elt Ideal) (Vf (Pipeline.arrRef spec0 1)) y
      = Vf main_v20 (((cfg0.win 1).blk t).view.emb y) := rfl

theorem read_bias_block (y : ((cfg0.win 2).xblock (cfg0.grid.coords t)).Idx) :
    ((cfg0.win 2).blk t).view.read (Elt Ideal) (Vf (Pipeline.arrRef spec0 2)) y
      = Vf main_v21 (((cfg0.win 2).blk t).view.emb y) := rfl

end

/-! ## What a point writes back is its block of the layer -/

theorem flushed_eq (c : Dev nD) (t : Fin cfg0.N) :
    (dats m 0 c).flushed 3 t = ((cfg0.win 3).blk t).view.read (Elt Ideal) (layer m c) := by
  show (cfg0.win 3).cut (grid0.coords t) ((dats m 0 c).after 3 t) = _
  rw [after0_3]
  unfold out0_3
  rw [View.canon_unit_zero zero_offsets]
  simp only [View.ld_unit_zero (S := S1024x4096) zero_offsets, View.ld_unit_zero (S := S512x4096) zero_offsets,
    View.ld_unit_zero (S := S1x512) zero_offsets]
  obtain ⟨e00, e01, e10, e11, e20, e21, hg, hh⟩ := block_indices t
  funext j
  -- the entry's coordinates inside the block
  obtain ⟨p, q, hy⟩ : ∃ (p : Fin 1024) (q : Fin 512), (win0 3).xinj (grid0.coords t) j = ix2 p q := ⟨_, _, eq_ix2 _⟩
  have hp : (j 0).val = p.val := congrArg Fin.val (congrFun hy 0)
  have hq : (j 1).val = q.val := congrArg Fin.val (congrFun hy 1)
  -- and in the array
  have hn : win0_3.index t (0 : Fin 2) * 1024 + p.val < 8192 := by have := p.isLt; omega
  have ho : win0_3.index t (1 : Fin 2) * 512 + q.val < 4096 := by have := q.isLt; omega
  have hi : ((cfg0.win 3).blk t).view.emb j
      = ix2 (⟨win0_3.index t (0 : Fin 2) * 1024 + p.val, hn⟩ : Fin 8192) (⟨win0_3.index t (1 : Fin 2) * 512 + q.val, ho⟩ : Fin 4096) := by
    funext a; apply Fin.ext
    match a with
    | ⟨0, _⟩ => show win0_3.index t (0 : Fin 2) * 1024 + 1 * (j 0).val = win0_3.index t (0 : Fin 2) * 1024 + p.val; omega
    | ⟨1, _⟩ => show win0_3.index t (1 : Fin 2) * 512 + 1 * (j 1).val = win0_3.index t (1 : Fin 2) * 512 + q.val; omega
  show k0_pay1 (F := Ideal) (iblk m c 0 t) (iblk m c 1 t) (iblk m c 2 t) ((win0 3).xinj (grid0.coords t) j)
    = layer m c (((cfg0.win 3).blk t).view.emb j)
  rw [hy, hi]
  refine block_entry _ _ _ (iblk m c 0 t) (iblk m c 1 t) (iblk m c 2 t) p q _ _ (fun k => ?_) (fun k => ?_) ?_
  · -- token row p of the block is token row 1024·g + p of the argument
    refine ((read_token_block c (V m c) t (ix2 p k)).trans (congrFun (Cert.EntryArrays.tokens_eq m c) _)).trans
      (congrArg (m ((c : Thread nD τ).loc main_arg0)) (funext fun a => Fin.ext ?_))
    match a with
    | ⟨0, _⟩ => show win0_0.index t (0 : Fin 2) * 1024 + 1 * p.val = win0_3.index t (0 : Fin 2) * 1024 + p.val; omega
    | ⟨1, _⟩ => show win0_0.index t (1 : Fin 2) * 4096 + 1 * k.val = k.val; omega
  · -- weight row q of the block is weight row 512·h + q of the matrix
    refine ((read_weight_block c (V m c) t (ix2 q k)).trans (congrFun (Cert.EntryWeights.weights_eq m c) _)).trans
      (congrArg (Cert.RefRows.weights (m ((c : Thread nD τ).loc main_arg1)) (m ((c : Thread nD τ).loc main_arg3)))
        (funext fun a => Fin.ext ?_))
    match a with
    | ⟨0, _⟩ => show win0_1.index t (0 : Fin 2) * 512 + 1 * q.val = win0_3.index t (1 : Fin 2) * 512 + q.val; omega
    | ⟨1, _⟩ => show win0_1.index t (1 : Fin 2) * 4096 + 1 * k.val = k.val; omega
  · -- bias strip entry q is bias entry 512·h + q
    refine ((read_bias_block c (V m c) t (ix2 (0 : Fin 1) q)).trans
      (congrArg (V m c main_v21 : S1x4096.Idx → EReal) (funext fun a => Fin.ext ?_))).trans
      (Cert.EntryArrays.bias_row_apply m c ⟨win0_3.index t (1 : Fin 2) * 512 + q.val, ho⟩)
    match a with
    | ⟨0, _⟩ => show win0_2.index t (0 : Fin 2) * 1 + 1 * 0 = 0; omega
    | ⟨1, _⟩ => show win0_2.index t (1 : Fin 2) * 512 + 1 * q.val = win0_3.index t (1 : Fin 2) * 512 + q.val; omega

/-! ## The blocks tile the array -/

/-- An index of the array is in point `t`'s block iff each coordinate is in the block's range on its axis. -/
theorem mem_block (t : Fin cfg0.N) (i : S8192x4096.Idx) :
    i ∈ ((cfg0.win 3).blk t).view.set
      ↔ ∀ a : Fin 2, win0_3.index t a * S1024x512.size a ≤ (i a).val ∧ (i a).val < win0_3.index t a * S1024x512.size a + S1024x512.size a := by
  show i ∈ ((View.whole main_v22).slice (win0_3.rect t)).set ↔ _
  rw [View.set_slice_whole, Rect.mem_set_unit]
  exact Iff.rfl

/-- Every entry of the result array lies in the block of the point with block indices (row / 1024, column / 512). -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := block_indices_onto ⟨(i 0).val / 1024, by omega⟩ ⟨(i 1).val / 512, by omega⟩
  have g0 : win0_3.index t (0 : Fin 2) = (i 0).val / 1024 := congrFun ht 0
  have g1 : win0_3.index t (1 : Fin 2) = (i 1).val / 512 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- So the result array ends holding the layer of the arguments. -/
theorem final (c : Dev nD) : (dats m 0 c).arrAt 3 cfg0.N = layer m c :=
  (dats m 0 c).arrAt_eq_of_cover 3 (layer m c) (fun t _ => flushed_eq m c t) covered

/-! ## The kernel's run, read -/

/-- Every weakly fair execution of the kernel program terminates with the result array at the layer of the arguments
    and the arguments unchanged. -/
theorem run : θ_run defs (onTc (τ := τ) (main (F := Ideal))) ⟨m, fun _ => 0, ρ⟩ fun r => ∀ c : Dev nD,
      r.2.mem ((c : Thread nD τ).loc main_v22) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.BlockCover

end
-- ==== Proof.lean ====
/-
  A sparse linear layer against its dense reading. Both programs first turn a sparse weight list — 1,677,722 values
  with their (row, column) positions — into a dense [4096, 4096] matrix w by summing the values into a zero matrix, and
  then apply to an [8192, 4096] array x of tokens and a bias b the affine map

      out (n, o) = Σ_k x (n, k) · w (o, k) + b (o).

  The reference does it with one contraction over the two second axes and a bias laid under every row
  (Proof/RefRows.lean). The kernel narrows x and w to a shorter float format — the identity at the ideal values —,
  views b as a [1, 4096] row (Proof/EntryArrays.lean, Proof/EntryWeights.lean), and covers the result with an 8 × 8
  grid of [1024, 512] blocks, each the product of 1024 token rows with 512 weight rows into a zero accumulator plus
  the matching strip of the bias (Proof/BlockProduct.lean); block (g, h) is the restriction of the same affine map to
  rows 1024·g … and columns 512·h …, and the blocks tile the array (Proof/BlockCover.lean). The two sides are therefore
  the same sum of the same products, term for term and in the same order of k: no law of the extended reals beyond
  that is needed, and finiteness of the inputs is not used.

  The three frames are the programs' runs with the results dropped; nothing was rewritten between the kernel as
  printed and its reading at the ideal values, so that claim is trivial.
-/
import proofs.«136315_j6820408066325_1_alg».proof.Defs
import proofs.«136315_j6820408066325_1_alg».proof.Proof.Gen.Kernel
import proofs.«136315_j6820408066325_1_alg».proof.Proof.Gen.Kernel.Frame
import proofs.«136315_j6820408066325_1_alg».proof.Proof.Gen.KernelIdeal
import proofs.«136315_j6820408066325_1_alg».proof.Proof.Gen.KernelIdeal.Frame
import proofs.«136315_j6820408066325_1_alg».proof.Proof.Gen.KernelIdeal.Value
import proofs.«136315_j6820408066325_1_alg».proof.Proof.Gen.ReferenceIdeal
import proofs.«136315_j6820408066325_1_alg».proof.Proof.Gen.ReferenceIdeal.Run
import proofs.«136315_j6820408066325_1_alg».proof.Proof.Gen.ReferenceIdeal.Read
import proofs.«136315_j6820408066325_1_alg».proof.Proof.Gen.Pre_finite_inputs
import proofs.«136315_j6820408066325_1_alg».proof.Proof.RefRows
import proofs.«136315_j6820408066325_1_alg».proof.Proof.BlockCover

noncomputable section

namespace Cert.Proof

open Idealize.ShloMosaic Idealize.SL.Sem

/-- The kernel as printed runs, faults nowhere and leaves its arguments as they were. -/
theorem frame_kernel : Cert.frame_Kernel := fun m ρ _ => Cert.Kernel.Gen.frame m ρ

/-- The same of the kernel read at the ideal values. -/
theorem frame_kernel_ideal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for its reading at the ideal values. -/
theorem preserves : Cert.preserves_Kernel_KernelIdeal := trivial

/-- From memories that agree on the four arguments both programs end with the dense affine layer of those arguments:
    the kernel block by block, the reference in one contraction. -/
theorem algebraic : Cert.algebraic_KernelIdeal_ReferenceIdeal := by
  intro m ρ m' ρ' _ hagree
  refine ⟨_, Cert.BlockCover.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.RefRows.result_is_rowsAffine,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
